-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩
abbrev S256x64 : Shape := ⟨2, ![256, 64]⟩
abbrev S1x64 : Shape := ⟨2, ![1, 64]⟩
abbrev S40000x64 : Shape := ⟨2, ![40000, 64]⟩
abbrev S5000x64 : Shape := ⟨2, ![5000, 64]⟩

abbrev nBuf : Space → Nat
  | .hbm => 58
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S40000x1, .f32⟩
  | .hbm, ⟨32, _⟩ => ⟨S256x128, .f32⟩
  | .hbm, ⟨33, _⟩ => ⟨S1x128, .f32⟩
  | .hbm, ⟨34, _⟩ => ⟨S40000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S40000x128, .f32⟩
  | .hbm, ⟨46, _⟩ => ⟨S640000x1, .i32⟩
  | .hbm, ⟨47, _⟩ => ⟨S40000x128, .f32⟩
  | .hbm, ⟨48, _⟩ => ⟨S_, .f32⟩
  | .hbm, ⟨49, _⟩ => ⟨S640000, .f32⟩
  | .hbm, ⟨50, _⟩ => ⟨S_, .f32⟩
  | .hbm, ⟨51, _⟩ => ⟨S40000, .f32⟩
  | .hbm, ⟨52, _⟩ => ⟨S640000x1, .i32⟩
  | .hbm, ⟨53, _⟩ => ⟨S40000, .f32⟩
  | .hbm, ⟨54, _⟩ => ⟨S40000x1, .f32⟩
  | .hbm, ⟨55, _⟩ => ⟨S256x64, .f32⟩
  | .hbm, ⟨56, _⟩ => ⟨S1x64, .f32⟩
  | .hbm, ⟨57, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S256x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  concatenates_S128x128_S128x128_S256x128_d0 : Shape.Concatenates [S128x128, S128x128] S256x128 0
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S256x64_d0 : Shape.Concatenates [S128x64, S128x64] S256x64 0
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x256_S256x128_S5000x128_1_0_0_1_n_n_wf : DotDims.WF S5000x256 S256x128 S5000x128 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S40000x1.size a
  hwx0_1 : ∀ i : grid0.Coords, EltTy.bits .f32 = 32 ∨ (Rect.block (s := S40000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S40000x64.size a
  hwx1_5 : ∀ i : grid1.Coords, EltTy.bits .f32 = 32 ∨ (Rect.block (s := S40000x64) S5000x64.size (cc1_transform_5 i) (hinb1_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S1x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S_, .f32⟩
  | .hbm, ⟨44, _⟩ => ⟨S40000x128, .f32⟩
  | .hbm, ⟨45, _⟩ => ⟨S40000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S40000x128, .f32⟩
  | .hbm, ⟨57, _⟩ => ⟨S640000x1, .i32⟩
  | .hbm, ⟨58, _⟩ => ⟨S40000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S40000, .f32⟩
  | .hbm, ⟨63, _⟩ => ⟨S640000x1, .i32⟩
  | .hbm, ⟨64, _⟩ => ⟨S40000, .f32⟩
  | .hbm, ⟨65, _⟩ => ⟨S_, .f32⟩
  | .hbm, ⟨66, _⟩ => ⟨S40000, .f32⟩
  | .hbm, ⟨67, _⟩ => ⟨S40000, .f32⟩
  | .hbm, ⟨68, _⟩ => ⟨S40000x1, .f32⟩
  | .hbm, ⟨69, _⟩ => ⟨S40000x128, .f32⟩
  | .hbm, ⟨70, _⟩ => ⟨S40000x128, .f32⟩
  | .hbm, ⟨71, _⟩ => ⟨S40000x64, .f32⟩
  | .hbm, ⟨72, _⟩ => ⟨S1x64, .f32⟩
  | .hbm, ⟨73, _⟩ => ⟨S40000x64, .f32⟩
  | .hbm, ⟨74, _⟩ => ⟨S40000x64, .f32⟩
  | .hbm, ⟨75, _⟩ => ⟨S40000x64, .f32⟩
  | .hbm, ⟨76, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.KernelRun.lean ====
import proofs.«113964_j86397562126633_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that
    outlives the kernels holds what the fold through @main's four segments leaves in it: the host operations
    applied in order, each kernel's arrays at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result array and the eight arguments read off: the result holds what the second kernel's
    write-backs leave in its output array, every argument what it was launched with. -/
theorem run_out : θ_run defs (onTc (τ := τ) (main (F := F))) ⟨m, fun _ => 0, ρ⟩ (fun r => ∀ c : Dev nD,
      r.2.mem ((c.tc : Thread nD τ).loc main_v39) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v39 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.Whole

end
-- ==== Proof.HostChain.lean ====
import proofs.«113964_j86397562126633_1_alg».proof.Proof.Gen.KernelIdeal

noncomputable section

open Idealize.ShloMosaic Idealize.ShloMosaic.TcCoe Idealize.SL.Sem

namespace Cert.KernelIdeal.HostSide

open Cert.KernelIdeal Cert.KernelIdeal.Facts₀

variable {F : FTy → Type} [FloatOps F]

/-- Row 0 of the edge list as a vector: every edge's source node. -/
def srcNodes (e : (⟨S2x640000, .i32⟩ : BufTy).Contents (Elt F)) : (⟨S640000, .i32⟩ : BufTy).Contents (Elt F) :=
  shapeCast S640000 (extractStridedSlice S1x640000 ![0, 0] e slices_S2x640000_S1x640000_0_0) shapeCasts_S1x640000_S640000

/-- Row 1 of the edge list as a vector: every edge's destination node. -/
def dstNodes (e : (⟨S2x640000, .i32⟩ : BufTy).Contents (Elt F)) : (⟨S640000, .i32⟩ : BufTy).Contents (Elt F) :=
  shapeCast S640000 (extractStridedSlice S1x640000 ![1, 0] e slices_S2x640000_S1x640000_1_0) shapeCasts_S1x640000_S640000

/-- The neighbour sum of a feature array `h` over the edge list: the rows of `h` at the edges' source nodes (a negative
    node number counted from the end) gathered, and added up at each edge's destination node, from zero. Both programs
    compute it by the same host operations, so it is carried as one function and never opened. -/
def neighbourSum (src dst : (⟨S640000, .i32⟩ : BufTy).Contents (Elt F)) (h : (⟨S40000x128, .f32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst)
    (Host.gather gather_S40000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 40000#32))) src)))

/-- The number of edges arriving at each node: ones added up at each edge's destination node, from zero. -/
def degree (dst : (⟨S640000, .i32⟩ : BufTy).Contents (Elt F)) : (⟨S40000, .f32⟩ : BufTy).Contents (Elt F) :=
  Host.scatterAdd scatter_S40000_S640000x1_S640000_n_0_0_1
    (broadcastInDim S40000 ![] bcast_S_S40000 (constant S_ .f32 0x00000000#32))
    (broadcastInDim S640000x1 ![0] bcast_S640000_S640000x1_0 dst)
    (broadcastInDim S640000 ![] bcast_S_S640000 (constant S_ .f32 0x3F800000#32))

end Cert.KernelIdeal.HostSide

end
-- ==== Proof.LibSumHalves.lean ====
import Mathlib.Algebra.BigOperators.Fin

/-- A sum over 256 terms, in any commutative monoid, is the sum of its first 128 terms plus the sum of its last 128:
    a contraction over two blocks laid side by side is the sum of the two blocks' contractions. -/
theorem Cert.Lib.sum_halves {M : Type} [AddCommMonoid M] (f : Fin 256 → M) :
    ∑ k : Fin 256, f k = ∑ k : Fin 128, f ⟨k.val, by omega⟩ + ∑ k : Fin 128, f ⟨128 + k.val, by omega⟩ :=
  Fin.sum_univ_add (a := 128) (b := 128) f
-- ==== Proof.PayloadL1.lean ====
import proofs.«113964_j86397562126633_1_alg».proof.Proof.Gen.KernelIdeal.Skeleton
import Idealize.ShloMosaic.Lib.ValueIdx
import Idealize.ShloMosaic.Lib.Pipeline.Value
import Idealize.ShloMosaic.PureOps.Ideal.Laws
import proofs.«113964_j86397562126633_1_alg».proof.Proof.LibSumHalves

noncomputable section

open Idealize.ShloMosaic Idealize.ShloMosaic.TcCoe Idealize.SL.Sem

namespace Cert.KernelIdeal.Layer1

open Cert.KernelIdeal Cert.KernelIdeal.Gen

/-- Row `j 0`, column `k` of a [5000, 128] block. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Row `j 0` of the [5000, 1] column of counts. -/
abbrev cntAt (j : S5000x128.Idx) : S5000x1.Idx := fun a => match a with
  | ⟨0, _⟩ => ⟨(j 0).val, (j 0).isLt⟩
  | ⟨1, _⟩ => ⟨0, Nat.one_pos⟩
/-- Row `k`, column `j 1` of the upper half of the stacked [256, 128] weights. -/
abbrev upperAt (j : S5000x128.Idx) (k : Fin 128) : S256x128.Idx := fun a => match a with
  | ⟨0, _⟩ => ⟨k.val, by have := k.isLt; show k.val < 256; omega⟩
  | ⟨1, _⟩ => ⟨(j 1).val, (j 1).isLt⟩
/-- Row `128 + k`, column `j 1` of the stacked weights: its lower half. -/
abbrev lowerAt (j : S5000x128.Idx) (k : Fin 128) : S256x128.Idx := fun a => match a with
  | ⟨0, _⟩ => ⟨128 + k.val, by have := k.isLt; show 128 + k.val < 256; omega⟩
  | ⟨1, _⟩ => ⟨(j 1).val, (j 1).isLt⟩
/-- Column `j 1` of the [1, 128] bias row. -/
abbrev biasAt (j : S5000x128.Idx) : S1x128.Idx := fun a => match a with
  | ⟨0, _⟩ => ⟨0, Nat.one_pos⟩
  | ⟨1, _⟩ => ⟨(j 1).val, (j 1).isLt⟩

/-! The operand indices of the [5000, 256] × [256, 128] product at output entry `j` and contraction index `q`: the left
    operand is read at row `j 0`, column `q`; the right at row `q`, column `j 1`. -/

theorem lhs_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_col (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_row (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the first kernel's body stores at entry `j` of its block, from the blocks it loads (`x0` the neighbour sums, `x1`
    the neighbour counts as a column, `x2` the features, `x3` the two weight matrices stacked, `x4` the bias as a row):
    the row of `x0` divided by `max(count, 1)` against the upper half of `x3`, plus the row of `x2` against its lower
    half, plus the bias, clamped below at zero. The one contraction over 256 is split where the two pieces of the
    concatenated row meet; a change of float format is the identity on extended reals. -/
theorem pay_apply (x1 : FVec Ideal S5000x1 .f32) (x0 x2 : FVec Ideal S5000x128 .f32) (x3 : FVec Ideal S256x128 .f32) (x4 : FVec Ideal S1x128 .f32)
    (j : S5000x128.Idx) :
    k0_pay1 (F := Ideal) x1 x0 x2 x3 x4 j
      = max (((∑ k : Fin 128, Ideal.div (x0 (rowAt j k)) (max (x1 (cntAt j)) (FloatOps.ofBits (F := Ideal) .f32 0x3F800000#32)) * x3 (upperAt j k))
              + ∑ k : Fin 128, x2 (rowAt j k) * x3 (lowerAt j k)) + x4 (biasAt j))
          (FloatOps.ofBits (F := Ideal) .f32 0x00000000#32) := by
  unfold k0_pay1
  refine congrArg₂ max (congrArg₂ (· + ·) ?_ ?_) rfl
  · refine (Ideal.matmul_constant_zero_apply _ none _ _ j).trans ?_
    rw [← Equiv.sum_comp (ValueIdx.contrEquiv1 dot_S5000x256_S256x128_S5000x128_1_0_0_1_n_n 256 rfl rfl).symm]
    refine (Cert.Lib.sum_halves _).trans ?_
    refine congrArg₂ (· + ·) (Finset.sum_congr rfl fun k _ => ?_) (Finset.sum_congr rfl fun k _ => ?_)
    · have hq := ValueIdx.contrEquiv1_symm_val dot_S5000x256_S256x128_S5000x128_1_0_0_1_n_n 256 rfl rfl ⟨k.val, by omega⟩
      refine congrArg₂ (· * ·) ?_ ?_
      · show concatenate S5000x256 1 [⟨S5000x128, _⟩, ⟨S5000x128, x2⟩] concatenates_S5000x128_S5000x128_S5000x256_d1 (dot_S5000x256_S256x128_S5000x128_1_0_0_1_n_n.lhsIdx j _) = _
        refine (concatenate_pair_apply_left (t := S5000x256) (s₁ := S5000x128) (s₂ := S5000x128) 1 _ _ _ _ rfl (rowAt j k) (fun b => ?_)).trans ?_
        · match b with
          | ⟨0, _⟩ => exact (lhs_row _ _).symm
          | ⟨1, _⟩ => exact ((lhs_col _ _).trans hq).symm
        · show Ideal.div (shapeCast S5000x128 x0 _ (rowAt j k)) (broadcastTo S5000x128 _ _ (rowAt j k)) = _
          rw [shapeCast_self, broadcastTo_apply _ _ (rowAt j k) (cntAt j) (fun a => by
            match a with
            | ⟨0, _⟩ => show (j 0).val = if (5000 : Nat) = 1 then 0 else (j 0).val; rw [if_neg (by decide)]
            | ⟨1, _⟩ => show 0 = if (1 : Nat) = 1 then 0 else k.val; rw [if_pos rfl])]
          show Ideal.div _ (max (shapeCast S5000x1 x1 _ (cntAt j)) _) = _
          rw [shapeCast_self]
          rfl
      · show shapeCast S256x128 x3 _ (dot_S5000x256_S256x128_S5000x128_1_0_0_1_n_n.rhsIdx j _) = x3 (upperAt j k)
        rw [shapeCast_self]
        exact congrArg x3 (funext fun a => Fin.ext (by
          match a with
          | ⟨0, _⟩ => exact (rhs_row _ _).trans hq
          | ⟨1, _⟩ => exact rhs_col _ _))
    · have hq := ValueIdx.contrEquiv1_symm_val dot_S5000x256_S256x128_S5000x128_1_0_0_1_n_n 256 rfl rfl ⟨128 + k.val, by omega⟩
      refine congrArg₂ (· * ·) ?_ ?_
      · show concatenate S5000x256 1 [⟨S5000x128, _⟩, ⟨S5000x128, x2⟩] concatenates_S5000x128_S5000x128_S5000x256_d1 (dot_S5000x256_S256x128_S5000x128_1_0_0_1_n_n.lhsIdx j _) = _
        refine concatenate_pair_apply_right (t := S5000x256) (s₁ := S5000x128) (s₂ := S5000x128) 1 _ x2 _ _ rfl rfl (rowAt j k) (fun b hb => ?_) ?_
        · match b with
          | ⟨0, _⟩ => exact (lhs_row _ _).symm
          | ⟨1, _⟩ => exact absurd rfl hb
        · show k.val + 128 = (dot_S5000x256_S256x128_S5000x128_1_0_0_1_n_n.lhsIdx j _ 1).val
          rw [lhs_col, hq]; show k.val + 128 = 128 + k.val; omega
      · show shapeCast S256x128 x3 _ (dot_S5000x256_S256x128_S5000x128_1_0_0_1_n_n.rhsIdx j _) = x3 (lowerAt j k)
        rw [shapeCast_self]
        exact congrArg x3 (funext fun a => Fin.ext (by
          match a with
          | ⟨0, _⟩ => exact (rhs_row _ _).trans hq
          | ⟨1, _⟩ => exact rhs_col _ _))
  · rw [shapeCast_self]
    exact broadcastTo_apply x4 _ j (biasAt j) (fun a => by
      match a with
      | ⟨0, _⟩ => show 0 = if (1 : Nat) = 1 then 0 else (j 0).val; rw [if_pos rfl]
      | ⟨1, _⟩ => show (j 1).val = if (128 : Nat) = 1 then 0 else (j 1).val; rw [if_neg (by decide)])
end Cert.KernelIdeal.Layer1
end
-- ==== Proof.ArrayL1.lean ====
import proofs.«113964_j86397562126633_1_alg».proof.Proof.Gen.KernelIdeal.Frame
import proofs.«113964_j86397562126633_1_alg».proof.Proof.PayloadL1
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen

/-- Row `i 0`, column `k` of a [40000, 128] array. -/
abbrev aRow (i : S40000x128.Idx) (k : Fin 128) : S40000x128.Idx := fun a => match a with
  | ⟨0, _⟩ => ⟨(i 0).val, (i 0).isLt⟩
  | ⟨1, _⟩ => ⟨k.val, k.isLt⟩
/-- Row `i 0` of the [40000, 1] column of counts. -/
abbrev aCnt (i : S40000x128.Idx) : S40000x1.Idx := fun a => match a with
  | ⟨0, _⟩ => ⟨(i 0).val, (i 0).isLt⟩
  | ⟨1, _⟩ => ⟨0, Nat.one_pos⟩
/-- Row `k`, column `i 1` of the stacked weights: the upper half. -/
abbrev aUpper (i : S40000x128.Idx) (k : Fin 128) : S256x128.Idx := fun a => match a with
  | ⟨0, _⟩ => ⟨k.val, by have := k.isLt; show k.val < 256; omega⟩
  | ⟨1, _⟩ => ⟨(i 1).val, (i 1).isLt⟩
/-- Row `128 + k`, column `i 1` of the stacked weights: the lower half. -/
abbrev aLower (i : S40000x128.Idx) (k : Fin 128) : S256x128.Idx := fun a => match a with
  | ⟨0, _⟩ => ⟨128 + k.val, by have := k.isLt; show 128 + k.val < 256; omega⟩
  | ⟨1, _⟩ => ⟨(i 1).val, (i 1).isLt⟩
/-- Column `i 1` of the bias row. -/
abbrev aBias (i : S40000x128.Idx) : S1x128.Idx := fun a => match a with
  | ⟨0, _⟩ => ⟨0, Nat.one_pos⟩
  | ⟨1, _⟩ => ⟨(i 1).val, (i 1).isLt⟩

/-- The hidden features as ONE function of the five arrays the first kernel reads (the neighbour sums, the neighbour
    counts as a column, the features, the two weight matrices stacked, the bias as a row): entry (r, c) is
    `max ((Σ_k sums[r,k] / max(cnt[r], 1) · W[k,c] + Σ_k x[r,k] · W[128+k,c]) + b[c], 0)`. -/
def hidden (A0 : FVec Ideal S40000x128 .f32) (A1 : FVec Ideal S40000x1 .f32) (A2 : FVec Ideal S40000x128 .f32)
    (A3 : FVec Ideal S256x128 .f32) (A4 : FVec Ideal S1x128 .f32) : FVec Ideal S40000x128 .f32 := fun i =>
  max (((∑ k : Fin 128, Ideal.div (A0 (aRow i k)) (max (A1 (aCnt i)) (FloatOps.ofBits (F := Ideal) .f32 0x3F800000#32)) * A3 (aUpper i k))
          + ∑ k : Fin 128, A2 (aRow i k) * A3 (aLower i k)) + A4 (aBias i))
      (FloatOps.ofBits (F := Ideal) .f32 0x00000000#32)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` the three row-blocked inputs and the output are at
    block row `t`, the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the neighbour sums is rows `5000 t … 5000 t + 4999` of their array. -/
theorem read0 (c : Dev nD) (t : Fin cfg0.N) (y : S5000x128.Idx) (i : S40000x128.Idx)
    (h0 : (i 0).val = t.val * 5000 + (y 0).val) (h1 : (i 1).val = (y 1).val) :
    (iblk0 V c 0 t : FVec Ideal S5000x128 .f32) y = (V c main_v13 : FVec Ideal S40000x128 .f32) i := by
  obtain ⟨e0, e1, -⟩ := idx_facts t
  unfold iblk0
  rw [View.read_apply]
  show (V c main_v13 : FVec Ideal S40000x128 .f32) _ = _
  refine congrArg (V c main_v13 : FVec Ideal S40000x128 .f32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Block `t` of the counts column is rows `5000 t … 5000 t + 4999` of their array. -/
theorem read1 (c : Dev nD) (t : Fin cfg0.N) (y : S5000x1.Idx) (i : S40000x1.Idx)
    (h0 : (i 0).val = t.val * 5000 + (y 0).val) :
    (iblk0 V c 1 t : FVec Ideal S5000x1 .f32) y = (V c main_v18 : FVec Ideal S40000x1 .f32) i := by
  obtain ⟨-, -, e0, e1, -⟩ := idx_facts t
  unfold iblk0
  rw [View.read_apply]
  show (V c main_v18 : FVec Ideal S40000x1 .f32) _ = _
  refine congrArg (V c main_v18 : FVec Ideal S40000x1 .f32) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1]; have hy : (y 1).val < 1 := (y 1).isLt; have hi : (i 1).val < 1 := (i 1).isLt; omega

/-- Block `t` of the features is rows `5000 t … 5000 t + 4999` of their array. -/
theorem read2 (c : Dev nD) (t : Fin cfg0.N) (y : S5000x128.Idx) (i : S40000x128.Idx)
    (h0 : (i 0).val = t.val * 5000 + (y 0).val) (h1 : (i 1).val = (y 1).val) :
    (iblk0 V c 2 t : FVec Ideal S5000x128 .f32) y = (V c main_arg0 : FVec Ideal S40000x128 .f32) i := by
  obtain ⟨-, -, -, -, e0, e1, -⟩ := idx_facts t
  unfold iblk0
  rw [View.read_apply]
  show (V c main_arg0 : FVec Ideal S40000x128 .f32) _ = _
  refine congrArg (V c main_arg0 : FVec Ideal S40000x128 .f32) (funext fun a => Fin.ext ?_)
  match a with
  | ⟨0, _⟩ => show win0_2.index t (0 : Fin 2) * 5000 + 1 * (y 0).val = (i 0).val; rw [e0, h0]; omega
  | ⟨1, _⟩ => show win0_2.index t (1 : Fin 2) * 128 + 1 * (y 1).val = (i 1).val; rw [e1, h1]; omega

/-- The stacked weights' one block is their whole array, at every point. -/
theorem read3 (c : Dev nD) (t : Fin cfg0.N) (y : S256x128.Idx) :
    (iblk0 V c 3 t : FVec Ideal S256x128 .f32) y = (V c main_v19 : FVec Ideal S256x128 .f32) y := by
  obtain ⟨-, -, -, -, -, -, e0, e1, -⟩ := idx_facts t
  unfold iblk0
  rw [View.read_apply]
  show (V c main_v19 : FVec Ideal S256x128 .f32) _ = _
  refine congrArg (V c main_v19 : FVec Ideal S256x128 .f32) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- The bias row's one block is its whole array, at every point. -/
theorem read4 (c : Dev nD) (t : Fin cfg0.N) (y : S1x128.Idx) :
    (iblk0 V c 4 t : FVec Ideal S1x128 .f32) y = (V c main_v20 : FVec Ideal S1x128 .f32) y := by
  obtain ⟨-, -, -, -, -, -, -, -, e0, e1, -⟩ := idx_facts t
  unfold iblk0
  rw [View.read_apply]
  show (V c main_v20 : FVec Ideal S1x128 .f32) _ = _
  refine congrArg (V c main_v20 : FVec Ideal S1x128 .f32) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Entry `j` of the output's block at point `t` sits at row `5000 t + j 0`, column `j 1` of the output array. -/
theorem out_coords (t : Fin cfg0.N) (j : S5000x128.Idx) :
    ((((cfg0.win 5).blk t).view.emb j) 0).val = t.val * 5000 + (j 0).val
    ∧ ((((cfg0.win 5).blk t).view.emb j) 1).val = (j 1).val := by
  obtain ⟨-, -, -, -, -, -, -, -, -, -, e0, e1⟩ := idx_facts t
  constructor
  · show win0_5.index t (0 : Fin 2) * 5000 + 1 * (j 0).val = _; rw [e0]; omega
  · show win0_5.index t (1 : Fin 2) * 128 + 1 * (j 1).val = _; rw [e1]; omega

/-- WHAT POINT `t` WRITES BACK is block `t` of `hidden` of the five arrays as the kernel finds them. -/
theorem flushed_eq (c : Dev nD) (t : Fin cfg0.N) :
    (dat0 V c).flushed 5 t = ((cfg0.win 5).blk t).view.read (Elt Ideal)
      (hidden (V c main_v13) (V c main_v18) (V c main_arg0) (V c main_v19) (V c main_v20)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S256x128) hz, View.ld_unit_zero (S := S1x128) hz]
  funext j
  obtain ⟨hr, hc⟩ := out_coords t j
  show k0_pay1 (F := Ideal) (iblk0 V c 1 t) (iblk0 V c 0 t) (iblk0 V c 2 t) (iblk0 V c 3 t) (iblk0 V c 4 t) j
    = hidden (V c main_v13) (V c main_v18) (V c main_arg0) (V c main_v19) (V c main_v20) (((cfg0.win 5).blk t).view.emb j)
  refine (pay_apply (iblk0 V c 1 t) (iblk0 V c 0 t) (iblk0 V c 2 t) (iblk0 V c 3 t) (iblk0 V c 4 t) j).trans ?_
  unfold hidden
  refine congrArg₂ max (congrArg₂ (· + ·) (congrArg₂ (· + ·) (Finset.sum_congr rfl fun k _ => ?_) (Finset.sum_congr rfl fun k _ => ?_)) ?_) rfl
  · refine congrArg₂ (· * ·) (congrArg₂ Ideal.div ?_ (congrArg₂ max ?_ rfl)) ?_
    · exact read0 V c t (rowAt j k) (aRow _ k) hr rfl
    · exact read1 V c t (cntAt j) (aCnt _) hr
    · refine (read3 V c t (upperAt j k)).trans (congrArg (V c main_v19 : FVec Ideal S256x128 .f32) (funext fun a => Fin.ext ?_))
      match a with
      | ⟨0, _⟩ => rfl
      | ⟨1, _⟩ => exact hc.symm
  · refine congrArg₂ (· * ·) ?_ ?_
    · exact read2 V c t (rowAt j k) (aRow _ k) hr rfl
    · refine (read3 V c t (lowerAt j k)).trans (congrArg (V c main_v19 : FVec Ideal S256x128 .f32) (funext fun a => Fin.ext ?_))
      match a with
      | ⟨0, _⟩ => rfl
      | ⟨1, _⟩ => exact hc.symm
  · refine (read4 V c t (biasAt j)).trans (congrArg (V c main_v20 : FVec Ideal S1x128 .f32) (funext fun a => Fin.ext ?_))
    match a with
    | ⟨0, _⟩ => rfl
    | ⟨1, _⟩ => exact hc.symm

/-- An index of the output array is in point `t`'s block iff each coordinate is in the block's range on its axis. -/
theorem mem_blk (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- THE ARRAY after the kernel: the eight row blocks tile it (row `r` is in block `r / 5000`), so it holds `hidden` of
    the five arrays as the kernel finds them. -/
theorem final (c : Dev nD) : (dat0 V c).arrAt 5 cfg0.N
    = hidden (V c main_v13) (V c main_v18) (V c main_arg0) (V c main_v19) (V c main_v20) :=
  (dat0 V c).arrAt_eq_of_cover 5 _ (fun t _ => flushed_eq V c t) fun i => by
    have hi0 : (i 0).val < 40000 := (i 0).isLt
    have hi1 : (i 1).val < 128 := (i 1).isLt
    have hN : cfg0.N = 8 := N_0
    refine ⟨⟨(i 0).val / 5000, by rw [hN]; omega⟩, flush0_5 _, ?_⟩
    rw [mem_blk]
    obtain ⟨-, -, -, -, -, -, -, -, -, -, e0, e1⟩ := idx_facts ⟨(i 0).val / 5000, by rw [hN]; omega⟩
    intro a
    match a with
    | ⟨0, _⟩ => show win0_5.index _ (0 : Fin 2) * 5000 ≤ (i 0).val ∧ (i 0).val < win0_5.index _ (0 : Fin 2) * 5000 + 5000; rw [e0]; show (i 0).val / 5000 * 5000 ≤ (i 0).val ∧ (i 0).val < (i 0).val / 5000 * 5000 + 5000; omega
    | ⟨1, _⟩ => show win0_5.index _ (1 : Fin 2) * 128 ≤ (i 1).val ∧ (i 1).val < win0_5.index _ (1 : Fin 2) * 128 + 128; rw [e1]; omega

end Cert.KernelIdeal.Layer1

end
-- ==== Proof.PayloadL2.lean ====
import proofs.«113964_j86397562126633_1_alg».proof.Proof.Gen.KernelIdeal.Skeleton
import Idealize.ShloMosaic.Lib.ValueIdx
import Idealize.ShloMosaic.Lib.Pipeline.Value
import Idealize.ShloMosaic.PureOps.Ideal.Laws
import proofs.«113964_j86397562126633_1_alg».proof.Proof.LibSumHalves

noncomputable section

open Idealize.ShloMosaic Idealize.ShloMosaic.TcCoe Idealize.SL.Sem

namespace Cert.KernelIdeal.Layer2

open Cert.KernelIdeal Cert.KernelIdeal.Gen

/-- Row `j 0`, column `k` of a [5000, 128] block. -/
abbrev rowAt (j : S5000x64.Idx) (k : Fin 128) : S5000x128.Idx := fun a => match a with
  | ⟨0, _⟩ => ⟨(j 0).val, (j 0).isLt⟩
  | ⟨1, _⟩ => ⟨k.val, k.isLt⟩
/-- Row `j 0` of the [5000, 1] column of counts. -/
abbrev cntAt (j : S5000x64.Idx) : S5000x1.Idx := fun a => match a with
  | ⟨0, _⟩ => ⟨(j 0).val, (j 0).isLt⟩
  | ⟨1, _⟩ => ⟨0, Nat.one_pos⟩
/-- Row `k`, column `j 1` of the upper half of the stacked [256, 64] weights. -/
abbrev upperAt (j : S5000x64.Idx) (k : Fin 128) : S256x64.Idx := fun a => match a with
  | ⟨0, _⟩ => ⟨k.val, by have := k.isLt; show k.val < 256; omega⟩
  | ⟨1, _⟩ => ⟨(j 1).val, (j 1).isLt⟩
/-- Row `128 + k`, column `j 1` of the stacked weights: its lower half. -/
abbrev lowerAt (j : S5000x64.Idx) (k : Fin 128) : S256x64.Idx := fun a => match a with
  | ⟨0, _⟩ => ⟨128 + k.val, by have := k.isLt; show 128 + k.val < 256; omega⟩
  | ⟨1, _⟩ => ⟨(j 1).val, (j 1).isLt⟩
/-- Column `j 1` of the [1, 64] bias row. -/
abbrev biasAt (j : S5000x64.Idx) : S1x64.Idx := fun a => match a with
  | ⟨0, _⟩ => ⟨0, Nat.one_pos⟩
  | ⟨1, _⟩ => ⟨(j 1).val, (j 1).isLt⟩

/-! The operand indices of the [5000, 256] × [256, 64] product at output entry `j` and contraction index `q`: the left
    operand is read at row `j 0`, column `q`; the right at row `q`, column `j 1`. -/

theorem lhs_row (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_col (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
theorem rhs_row (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
theorem rhs_col (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- What the second kernel's body stores at entry `j` of its block, from the blocks it loads (`x0` the neighbour sums of
    the hidden features, `x1` the neighbour counts as a column, `x2` the hidden features, `x3` the two weight matrices
    stacked, `x4` the bias as a row): the row of `x0` divided by `max(count, 1)` against the upper half of `x3`, plus the
    row of `x2` against its lower half, plus the bias. -/
theorem pay_apply (x1 : FVec Ideal S5000x1 .f32) (x0 x2 : FVec Ideal S5000x128 .f32) (x3 : FVec Ideal S256x64 .f32) (x4 : FVec Ideal S1x64 .f32)
    (j : S5000x64.Idx) :
    k1_pay1 (F := Ideal) x1 x0 x2 x3 x4 j
      = ((∑ k : Fin 128, Ideal.div (x0 (rowAt j k)) (max (x1 (cntAt j)) (FloatOps.ofBits (F := Ideal) .f32 0x3F800000#32)) * x3 (upperAt j k))
          + ∑ k : Fin 128, x2 (rowAt j k) * x3 (lowerAt j k)) + x4 (biasAt j) := by
  unfold k1_pay1
  refine congrArg₂ (· + ·) ?_ ?_
  · refine (Ideal.matmul_constant_zero_apply _ none _ _ j).trans ?_
    rw [← Equiv.sum_comp (ValueIdx.contrEquiv1 dot_S5000x256_S256x64_S5000x64_1_0_0_1_n_n 256 rfl rfl).symm]
    refine (Cert.Lib.sum_halves _).trans ?_
    refine congrArg₂ (· + ·) (Finset.sum_congr rfl fun k _ => ?_) (Finset.sum_congr rfl fun k _ => ?_)
    · have hq := ValueIdx.contrEquiv1_symm_val dot_S5000x256_S256x64_S5000x64_1_0_0_1_n_n 256 rfl rfl ⟨k.val, by omega⟩
      refine congrArg₂ (· * ·) ?_ ?_
      · show concatenate S5000x256 1 [⟨S5000x128, _⟩, ⟨S5000x128, _⟩] concatenates_S5000x128_S5000x128_S5000x256_d1 (dot_S5000x256_S256x64_S5000x64_1_0_0_1_n_n.lhsIdx j _) = _
        refine (concatenate_pair_apply_left (t := S5000x256) (s₁ := S5000x128) (s₂ := S5000x128) 1 _ _ _ _ rfl (rowAt j k) (fun b => ?_)).trans ?_
        · match b with
          | ⟨0, _⟩ => exact (lhs_row _ _).symm
          | ⟨1, _⟩ => exact ((lhs_col _ _).trans hq).symm
        · show Ideal.div (shapeCast S5000x128 x0 _ (rowAt j k)) (broadcastTo S5000x128 _ _ (rowAt j k)) = _
          rw [shapeCast_self, broadcastTo_apply _ _ (rowAt j k) (cntAt j) (fun a => by
            match a with
            | ⟨0, _⟩ => show (j 0).val = if (5000 : Nat) = 1 then 0 else (j 0).val; rw [if_neg (by decide)]
            | ⟨1, _⟩ => show 0 = if (1 : Nat) = 1 then 0 else k.val; rw [if_pos rfl])]
          show Ideal.div _ (max (shapeCast S5000x1 x1 _ (cntAt j)) _) = _
          rw [shapeCast_self]
          rfl
      · show shapeCast S256x64 x3 _ (dot_S5000x256_S256x64_S5000x64_1_0_0_1_n_n.rhsIdx j _) = x3 (upperAt j k)
        rw [shapeCast_self]
        exact congrArg x3 (funext fun a => Fin.ext (by
          match a with
          | ⟨0, _⟩ => exact (rhs_row _ _).trans hq
          | ⟨1, _⟩ => exact rhs_col _ _))
    · have hq := ValueIdx.contrEquiv1_symm_val dot_S5000x256_S256x64_S5000x64_1_0_0_1_n_n 256 rfl rfl ⟨128 + k.val, by omega⟩
      refine congrArg₂ (· * ·) ?_ ?_
      · show concatenate S5000x256 1 [⟨S5000x128, _⟩, ⟨S5000x128, _⟩] concatenates_S5000x128_S5000x128_S5000x256_d1 (dot_S5000x256_S256x64_S5000x64_1_0_0_1_n_n.lhsIdx j _) = _
        refine (concatenate_pair_apply_right (t := S5000x256) (s₁ := S5000x128) (s₂ := S5000x128) 1 _ _ _ _ rfl rfl (rowAt j k) (fun b hb => ?_) ?_).trans (by rw [shapeCast_self])
        · match b with
          | ⟨0, _⟩ => exact (lhs_row _ _).symm
          | ⟨1, _⟩ => exact absurd rfl hb
        · show k.val + 128 = (dot_S5000x256_S256x64_S5000x64_1_0_0_1_n_n.lhsIdx j _ 1).val
          rw [lhs_col, hq]; show k.val + 128 = 128 + k.val; omega
      · show shapeCast S256x64 x3 _ (dot_S5000x256_S256x64_S5000x64_1_0_0_1_n_n.rhsIdx j _) = x3 (lowerAt j k)
        rw [shapeCast_self]
        exact congrArg x3 (funext fun a => Fin.ext (by
          match a with
          | ⟨0, _⟩ => exact (rhs_row _ _).trans hq
          | ⟨1, _⟩ => exact rhs_col _ _))
  · rw [shapeCast_self]
    exact broadcastTo_apply x4 _ j (biasAt j) (fun a => by
      match a with
      | ⟨0, _⟩ => show 0 = if (1 : Nat) = 1 then 0 else (j 0).val; rw [if_pos rfl]
      | ⟨1, _⟩ => show (j 1).val = if (64 : Nat) = 1 then 0 else (j 1).val; rw [if_neg (by decide)])
end Cert.KernelIdeal.Layer2
end
-- ==== Proof.ArrayL2.lean ====
import proofs.«113964_j86397562126633_1_alg».proof.Proof.Gen.KernelIdeal.Frame
import proofs.«113964_j86397562126633_1_alg».proof.Proof.PayloadL2
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen

/-- Row `i 0` (of a [40000, 64] entry `i`), column `k` of a [40000, 128] array. -/
abbrev aRow (i : S40000x64.Idx) (k : Fin 128) : S40000x128.Idx := fun a => match a with
  | ⟨0, _⟩ => ⟨(i 0).val, (i 0).isLt⟩
  | ⟨1, _⟩ => ⟨k.val, k.isLt⟩
/-- Row `i 0` of the [40000, 1] column of counts. -/
abbrev aCnt (i : S40000x64.Idx) : S40000x1.Idx := fun a => match a with
  | ⟨0, _⟩ => ⟨(i 0).val, (i 0).isLt⟩
  | ⟨1, _⟩ => ⟨0, Nat.one_pos⟩
/-- Row `k`, column `i 1` of the stacked weights: the upper half. -/
abbrev aUpper (i : S40000x64.Idx) (k : Fin 128) : S256x64.Idx := fun a => match a with
  | ⟨0, _⟩ => ⟨k.val, by have := k.isLt; show k.val < 256; omega⟩
  | ⟨1, _⟩ => ⟨(i 1).val, (i 1).isLt⟩
/-- Row `128 + k`, column `i 1` of the stacked weights: the lower half. -/
abbrev aLower (i : S40000x64.Idx) (k : Fin 128) : S256x64.Idx := fun a => match a with
  | ⟨0, _⟩ => ⟨128 + k.val, by have := k.isLt; show 128 + k.val < 256; omega⟩
  | ⟨1, _⟩ => ⟨(i 1).val, (i 1).isLt⟩
/-- Column `i 1` of the bias row. -/
abbrev aBias (i : S40000x64.Idx) : S1x64.Idx := fun a => match a with
  | ⟨0, _⟩ => ⟨0, Nat.one_pos⟩
  | ⟨1, _⟩ => ⟨(i 1).val, (i 1).isLt⟩

/-- The result as ONE function of the five arrays the second kernel reads (the neighbour sums of the hidden features, the
    neighbour counts as a column, the hidden features, the two weight matrices stacked, the bias as a row): entry (r, c)
    is `(Σ_k sums[r,k] / max(cnt[r], 1) · W[k,c] + Σ_k h[r,k] · W[128+k,c]) + b[c]`. -/
def result (A0 : FVec Ideal S40000x128 .f32) (A1 : FVec Ideal S40000x1 .f32) (A2 : FVec Ideal S40000x128 .f32)
    (A3 : FVec Ideal S256x64 .f32) (A4 : FVec Ideal S1x64 .f32) : FVec Ideal S40000x64 .f32 := fun i =>
  ((∑ k : Fin 128, Ideal.div (A0 (aRow i k)) (max (A1 (aCnt i)) (FloatOps.ofBits (F := Ideal) .f32 0x3F800000#32)) * A3 (aUpper i k))
      + ∑ k : Fin 128, A2 (aRow i k) * A3 (aLower i k)) + A4 (aBias i)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` the three row-blocked inputs and the output are at
    block row `t`, the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the neighbour sums is rows `5000 t … 5000 t + 4999` of their array. -/
theorem read0 (c : Dev nD) (t : Fin cfg1.N) (y : S5000x128.Idx) (i : S40000x128.Idx)
    (h0 : (i 0).val = t.val * 5000 + (y 0).val) (h1 : (i 1).val = (y 1).val) :
    (iblk1 V c 0 t : FVec Ideal S5000x128 .f32) y = (V c main_v31 : FVec Ideal S40000x128 .f32) i := by
  obtain ⟨e0, e1, -⟩ := idx_facts t
  unfold iblk1
  rw [View.read_apply]
  show (V c main_v31 : FVec Ideal S40000x128 .f32) _ = _
  refine congrArg (V c main_v31 : FVec Ideal S40000x128 .f32) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Block `t` of the counts column is rows `5000 t … 5000 t + 4999` of their array. -/
theorem read1 (c : Dev nD) (t : Fin cfg1.N) (y : S5000x1.Idx) (i : S40000x1.Idx)
    (h0 : (i 0).val = t.val * 5000 + (y 0).val) :
    (iblk1 V c 1 t : FVec Ideal S5000x1 .f32) y = (V c main_v18 : FVec Ideal S40000x1 .f32) i := by
  obtain ⟨-, -, e0, e1, -⟩ := idx_facts t
  unfold iblk1
  rw [View.read_apply]
  show (V c main_v18 : FVec Ideal S40000x1 .f32) _ = _
  refine congrArg (V c main_v18 : FVec Ideal S40000x1 .f32) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 1 + 1 * (y 1).val = (i 1).val; rw [e1]; have hy : (y 1).val < 1 := (y 1).isLt; have hi : (i 1).val < 1 := (i 1).isLt; omega

/-- Block `t` of the hidden features is rows `5000 t … 5000 t + 4999` of their array. -/
theorem read2 (c : Dev nD) (t : Fin cfg1.N) (y : S5000x128.Idx) (i : S40000x128.Idx)
    (h0 : (i 0).val = t.val * 5000 + (y 0).val) (h1 : (i 1).val = (y 1).val) :
    (iblk1 V c 2 t : FVec Ideal S5000x128 .f32) y = (V c main_v21 : FVec Ideal S40000x128 .f32) i := by
  obtain ⟨-, -, -, -, e0, e1, -⟩ := idx_facts t
  unfold iblk1
  rw [View.read_apply]
  show (V c main_v21 : FVec Ideal S40000x128 .f32) _ = _
  refine congrArg (V c main_v21 : FVec Ideal S40000x128 .f32) (funext fun a => Fin.ext ?_)
  match a with
  | ⟨0, _⟩ => show win1_2.index t (0 : Fin 2) * 5000 + 1 * (y 0).val = (i 0).val; rw [e0, h0]; omega
  | ⟨1, _⟩ => show win1_2.index t (1 : Fin 2) * 128 + 1 * (y 1).val = (i 1).val; rw [e1, h1]; omega

/-- The stacked weights' one block is their whole array, at every point. -/
theorem read3 (c : Dev nD) (t : Fin cfg1.N) (y : S256x64.Idx) :
    (iblk1 V c 3 t : FVec Ideal S256x64 .f32) y = (V c main_v37 : FVec Ideal S256x64 .f32) y := by
  obtain ⟨-, -, -, -, -, -, e0, e1, -⟩ := idx_facts t
  unfold iblk1
  rw [View.read_apply]
  show (V c main_v37 : FVec Ideal S256x64 .f32) _ = _
  refine congrArg (V c main_v37 : FVec Ideal S256x64 .f32) (funext fun a => Fin.ext ?_)
  match a with
  | ⟨0, _⟩ => show win1_3.index t (0 : Fin 2) * 256 + 1 * (y 0).val = (y 0).val; rw [e0]; omega
  | ⟨1, _⟩ => show win1_3.index t (1 : Fin 2) * 64 + 1 * (y 1).val = (y 1).val; rw [e1]; omega

/-- The bias row's one block is its whole array, at every point. -/
theorem read4 (c : Dev nD) (t : Fin cfg1.N) (y : S1x64.Idx) :
    (iblk1 V c 4 t : FVec Ideal S1x64 .f32) y = (V c main_v38 : FVec Ideal S1x64 .f32) y := by
  obtain ⟨-, -, -, -, -, -, -, -, e0, e1, -⟩ := idx_facts t
  unfold iblk1
  rw [View.read_apply]
  show (V c main_v38 : FVec Ideal S1x64 .f32) _ = _
  refine congrArg (V c main_v38 : FVec Ideal S1x64 .f32) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Entry `j` of the output's block at point `t` sits at row `5000 t + j 0`, column `j 1` of the output array. -/
theorem out_coords (t : Fin cfg1.N) (j : S5000x64.Idx) :
    ((((cfg1.win 5).blk t).view.emb j) 0).val = t.val * 5000 + (j 0).val
    ∧ ((((cfg1.win 5).blk t).view.emb j) 1).val = (j 1).val := by
  obtain ⟨-, -, -, -, -, -, -, -, -, -, e0, e1⟩ := idx_facts t
  constructor
  · show win1_5.index t (0 : Fin 2) * 5000 + 1 * (j 0).val = _; rw [e0]; omega
  · show win1_5.index t (1 : Fin 2) * 64 + 1 * (j 1).val = _; rw [e1]; omega

/-- WHAT POINT `t` WRITES BACK is block `t` of `result` of the five arrays as the second kernel finds them. -/
theorem flushed_eq (c : Dev nD) (t : Fin cfg1.N) :
    (dat1 V c).flushed 5 t = ((cfg1.win 5).blk t).view.read (Elt Ideal)
      (result (V c main_v31) (V c main_v18) (V c main_v21) (V c main_v37) (V c main_v38)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S256x64) hz, View.ld_unit_zero (S := S1x64) hz]
  funext j
  obtain ⟨hr, hc⟩ := out_coords t j
  show k1_pay1 (F := Ideal) (iblk1 V c 1 t) (iblk1 V c 0 t) (iblk1 V c 2 t) (iblk1 V c 3 t) (iblk1 V c 4 t) j
    = result (V c main_v31) (V c main_v18) (V c main_v21) (V c main_v37) (V c main_v38) (((cfg1.win 5).blk t).view.emb j)
  refine (pay_apply (iblk1 V c 1 t) (iblk1 V c 0 t) (iblk1 V c 2 t) (iblk1 V c 3 t) (iblk1 V c 4 t) j).trans ?_
  unfold result
  refine congrArg₂ (· + ·) (congrArg₂ (· + ·) (Finset.sum_congr rfl fun k _ => ?_) (Finset.sum_congr rfl fun k _ => ?_)) ?_
  · refine congrArg₂ (· * ·) (congrArg₂ Ideal.div ?_ (congrArg₂ max ?_ rfl)) ?_
    · exact read0 V c t (rowAt j k) (aRow _ k) hr rfl
    · exact read1 V c t (cntAt j) (aCnt _) hr
    · refine (read3 V c t (upperAt j k)).trans (congrArg (V c main_v37 : FVec Ideal S256x64 .f32) (funext fun a => Fin.ext ?_))
      match a with
      | ⟨0, _⟩ => rfl
      | ⟨1, _⟩ => exact hc.symm
  · refine congrArg₂ (· * ·) ?_ ?_
    · exact read2 V c t (rowAt j k) (aRow _ k) hr rfl
    · refine (read3 V c t (lowerAt j k)).trans (congrArg (V c main_v37 : FVec Ideal S256x64 .f32) (funext fun a => Fin.ext ?_))
      match a with
      | ⟨0, _⟩ => rfl
      | ⟨1, _⟩ => exact hc.symm
  · refine (read4 V c t (biasAt j)).trans (congrArg (V c main_v38 : FVec Ideal S1x64 .f32) (funext fun a => Fin.ext ?_))
    match a with
    | ⟨0, _⟩ => rfl
    | ⟨1, _⟩ => exact hc.symm

/-- An index of the output array is in point `t`'s block iff each coordinate is in the block's range on its axis. -/
theorem mem_blk (t : Fin cfg1.N) (i : S40000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- THE ARRAY after the kernel: the eight row blocks tile it (row `r` is in block `r / 5000`), so it holds `result` of
    the five arrays as the kernel finds them. -/
theorem final (c : Dev nD) : (dat1 V c).arrAt 5 cfg1.N
    = result (V c main_v31) (V c main_v18) (V c main_v21) (V c main_v37) (V c main_v38) :=
  (dat1 V c).arrAt_eq_of_cover 5 _ (fun t _ => flushed_eq V c t) fun i => by
    have hi0 : (i 0).val < 40000 := (i 0).isLt
    have hi1 : (i 1).val < 64 := (i 1).isLt
    have hN : cfg1.N = 8 := N_1
    refine ⟨⟨(i 0).val / 5000, by rw [hN]; omega⟩, flush1_5 _, ?_⟩
    rw [mem_blk]
    obtain ⟨-, -, -, -, -, -, -, -, -, -, e0, e1⟩ := idx_facts ⟨(i 0).val / 5000, by rw [hN]; omega⟩
    intro a
    match a with
    | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
    | ⟨1, _⟩ => show win1_5.index _ (1 : Fin 2) * 64 ≤ (i 1).val ∧ (i 1).val < win1_5.index _ (1 : Fin 2) * 64 + 64; rw [e1]; omega

end Cert.KernelIdeal.Layer2

end
-- ==== Proof.KernelValue.lean ====
import proofs.«113964_j86397562126633_1_alg».proof.Proof.Gen.KernelIdeal.Frame
import proofs.«113964_j86397562126633_1_alg».proof.Proof.HostChain
import proofs.«113964_j86397562126633_1_alg».proof.Proof.ArrayL1
import proofs.«113964_j86397562126633_1_alg».proof.Proof.ArrayL2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen

/-- The hidden features as a function of the arguments: the first layer's entry formula (`Layer1.hidden`) of the
    neighbour sums of the features, the edge counts as a column, the features, the two weight matrices stacked and the
    bias as a row. -/
def hiddenOf (x : (⟨S40000x128, .f32⟩ : BufTy).Contents (Elt Ideal)) (e : (⟨S2x640000, .i32⟩ : BufTy).Contents (Elt Ideal))
    (Wl : (⟨S128x128, .f32⟩ : BufTy).Contents (Elt Ideal)) (b : (⟨S128, .f32⟩ : BufTy).Contents (Elt Ideal))
    (Wr : (⟨S128x128, .f32⟩ : BufTy).Contents (Elt Ideal)) : (⟨S40000x128, .f32⟩ : BufTy).Contents (Elt Ideal) :=
  Layer1.hidden (neighbourSum (srcNodes e) (dstNodes e) x)
    (broadcastInDim S40000x1 ![0] bcast_S40000_S40000x1_0 (degree (dstNodes e))) x
    (concatenate S256x128 0 [⟨S128x128, Wl⟩, ⟨S128x128, Wr⟩] concatenates_S128x128_S128x128_S256x128_d0)
    (shapeCast S1x128 b shapeCasts_S128_S1x128)

/-- The program's result as a function of its eight arguments: the second layer's entry formula (`Layer2.result`) of the
    neighbour sums of the hidden features, the same edge counts, the hidden features, the second layer's two weight
    matrices stacked and its bias as a row. -/
def sage (x : (⟨S40000x128, .f32⟩ : BufTy).Contents (Elt Ideal)) (e : (⟨S2x640000, .i32⟩ : BufTy).Contents (Elt Ideal))
    (W1l : (⟨S128x128, .f32⟩ : BufTy).Contents (Elt Ideal)) (b1 : (⟨S128, .f32⟩ : BufTy).Contents (Elt Ideal))
    (W1r : (⟨S128x128, .f32⟩ : BufTy).Contents (Elt Ideal)) (W2l : (⟨S128x64, .f32⟩ : BufTy).Contents (Elt Ideal))
    (b2 : (⟨S64, .f32⟩ : BufTy).Contents (Elt Ideal)) (W2r : (⟨S128x64, .f32⟩ : BufTy).Contents (Elt Ideal)) :
    (⟨S40000x64, .f32⟩ : BufTy).Contents (Elt Ideal) :=
  Layer2.result (neighbourSum (srcNodes e) (dstNodes e) (hiddenOf x e W1l b1 W1r))
    (broadcastInDim S40000x1 ![0] bcast_S40000_S40000x1_0 (degree (dstNodes e))) (hiddenOf x e W1l b1 W1r)
    (concatenate S256x64 0 [⟨S128x64, W2l⟩, ⟨S128x64, W2r⟩] concatenates_S128x64_S128x64_S256x64_d0)
    (shapeCast S1x64 b2 shapeCasts_S64_S1x64)

/-- The neighbour sum of equal node lists and equal features is the same array. -/
theorem neighbourSum_congr {F : FTy → Type} [FloatOps F] {s s' d d' : (⟨S640000, .i32⟩ : BufTy).Contents (Elt F)}
    {h h' : (⟨S40000x128, .f32⟩ : BufTy).Contents (Elt F)} (hs : s = s') (hd : d = d') (hh : h = h') :
    neighbourSum s d h = neighbourSum s' d' h' := by subst hs hd hh; rfl

variable (m : (ℓ : Loc nD τ sig) → Buf (Elt Ideal) ℓ) (ρ : Dev nD → PrngReg)

/-! ## What the first kernel finds in its five arrays: the host operations before it, read off the launch memory -/

theorem V1_v13 (c : Dev nD) : V1 m ρ c main_v13
    = neighbourSum (srcNodes (m ((c : Thread nD τ).loc main_arg1))) (dstNodes (m ((c : Thread nD τ).loc main_arg1))) (m ((c : Thread nD τ).loc main_arg0)) := by
  show StableHlo.after hostOps0 (W0 m ρ c) (Proc.devRef .tc main_v13) = _
  after_results <;> rfl

theorem V1_v18 (c : Dev nD) : V1 m ρ c main_v18
    = broadcastInDim S40000x1 ![0] bcast_S40000_S40000x1_0 (degree (dstNodes (m ((c : Thread nD τ).loc main_arg1)))) := by
  show StableHlo.after hostOps0 (W0 m ρ c) (Proc.devRef .tc main_v18) = _
  after_results <;> rfl

theorem V1_arg0 (c : Dev nD) : V1 m ρ c main_arg0 = (m ((c : Thread nD τ).loc main_arg0)) := by
  show StableHlo.after hostOps0 (W0 m ρ c) (Proc.devRef .tc main_arg0) = _
  after_results <;> rfl

theorem V1_v19 (c : Dev nD) : V1 m ρ c main_v19
    = concatenate S256x128 0 [⟨S128x128, (m ((c : Thread nD τ).loc main_arg2))⟩, ⟨S128x128, (m ((c : Thread nD τ).loc main_arg4))⟩] concatenates_S128x128_S128x128_S256x128_d0 := by
  show StableHlo.after hostOps0 (W0 m ρ c) (Proc.devRef .tc main_v19) = _
  after_results <;> rfl

theorem V1_v20 (c : Dev nD) : V1 m ρ c main_v20 = shapeCast S1x128 (m ((c : Thread nD τ).loc main_arg3)) shapeCasts_S128_S1x128 := by
  show StableHlo.after hostOps0 (W0 m ρ c) (Proc.devRef .tc main_v20) = _
  after_results <;> rfl

/-- The first kernel leaves the hidden features in its output array. -/
theorem hidden_at (c : Dev nD) : (dat0 (V1 m ρ) c).arrAt 5 cfg0.N = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  rw [Layer1.final (V1 m ρ) c, V1_v13, V1_v18, V1_arg0, V1_v19, V1_v20]
  rfl

/-! ## The buffers the second stretch of host operations reads, as the first kernel leaves them -/

theorem W2_v1 (c : Dev nD) : W2 m ρ c (Proc.devRef .tc main_v1) = srcNodes (m ((c : Thread nD τ).loc main_arg1)) :=
  (W2_of_ne m ρ c main_v1 (by decide)).trans (by
    show StableHlo.after hostOps0 (W0 m ρ c) (Proc.devRef .tc main_v1) = _
    after_results <;> rfl)

theorem W2_v3 (c : Dev nD) : W2 m ρ c (Proc.devRef .tc main_v3) = dstNodes (m ((c : Thread nD τ).loc main_arg1)) :=
  (W2_of_ne m ρ c main_v3 (by decide)).trans (by
    show StableHlo.after hostOps0 (W0 m ρ c) (Proc.devRef .tc main_v3) = _
    after_results <;> rfl)

theorem W2_v21 (c : Dev nD) : W2 m ρ c (Proc.devRef .tc main_v21) = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans (hidden_at m ρ c)

theorem W2_v18 (c : Dev nD) : W2 m ρ c (Proc.devRef .tc main_v18)
    = broadcastInDim S40000x1 ![0] bcast_S40000_S40000x1_0 (degree (dstNodes (m ((c : Thread nD τ).loc main_arg1)))) :=
  (W2_arr m ρ c 1).trans ((((dat0 (V1 m ρ) c).arrAt_in 1 rfl _).trans (A_eq0 (V1 m ρ) c 1)).trans (V1_v18 m ρ c))

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results <;> rfl)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results <;> rfl)

theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)

/-! ## What the second kernel finds in its five arrays -/

theorem V3_v31 (c : Dev nD) : V3 m ρ c main_v31
    = neighbourSum (srcNodes (m ((c : Thread nD τ).loc main_arg1))) (dstNodes (m ((c : Thread nD τ).loc main_arg1))) (hiddenOf (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v31) = _
  after_results
  exact neighbourSum_congr (W2_v1 m ρ c) (W2_v3 m ρ c) (W2_v21 m ρ c)

theorem V3_v18 (c : Dev nD) : V3 m ρ c main_v18
    = broadcastInDim S40000x1 ![0] bcast_S40000_S40000x1_0 (degree (dstNodes (m ((c : Thread nD τ).loc main_arg1)))) := by
  show StableHlo.after hostOps1 (W2 m ρ c) (Proc.devRef .tc main_v18) = _
  after_results
  exact W2_v18 m ρ c

theorem V3_v21 (c : Dev nD) : V3 m ρ c main_v21 = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v21) = _
  after_results
  exact W2_v21 m ρ c

theorem V3_v37 (c : Dev nD) : V3 m ρ c main_v37
    = concatenate S256x64 0 [⟨S128x64, (m ((c : Thread nD τ).loc main_arg5))⟩, ⟨S128x64, (m ((c : Thread nD τ).loc main_arg7))⟩] concatenates_S128x64_S128x64_S256x64_d0 := by
  show StableHlo.after hostOps1 (W2 m ρ c) (Proc.devRef .tc main_v37) = _
  after_results
  rw [W2_arg5, W2_arg7]

theorem V3_v38 (c : Dev nD) : V3 m ρ c main_v38 = shapeCast S1x64 (m ((c : Thread nD τ).loc main_arg6)) shapeCasts_S64_S1x64 := by
  show StableHlo.after hostOps1 (W2 m ρ c) (Proc.devRef .tc main_v38) = _
  after_results
  rw [W2_arg6]
  rfl

/-- The second kernel leaves `sage` of the eight arguments in its output array, the program's result. -/
theorem result_at (c : Dev nD) : (dat1 (V3 m ρ) c).arrAt 5 cfg1.N
    = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Layer2.final (V3 m ρ) c, V3_v31, V3_v18, V3_v21, V3_v37, V3_v38]
  rfl

end Cert.KernelIdeal.HostSide

end
-- ==== Proof.EntryL1.lean ====
import proofs.«113964_j86397562126633_1_alg».proof.Proof.ArrayL1

noncomputable section

open Idealize.ShloMosaic Idealize.ShloMosaic.TcCoe Idealize.SL.Sem

namespace Cert.KernelIdeal.Layer1

open Cert.KernelIdeal Cert.KernelIdeal.Facts₀

/-- Node `i 0` of a per-node vector. -/
abbrev nodeAt (i : S40000x128.Idx) : S40000.Idx := fun a => match a with
  | ⟨0, _⟩ => ⟨(i 0).val, (i 0).isLt⟩
/-- Row `k`, column `i 1` of a [128, 128] weight matrix. -/
abbrev wAt (i : S40000x128.Idx) (k : Fin 128) : S128x128.Idx := fun a => match a with
  | ⟨0, _⟩ => ⟨k.val, k.isLt⟩
  | ⟨1, _⟩ => ⟨(i 1).val, (i 1).isLt⟩
/-- Entry `i 1` of the bias vector. -/
abbrev colAt (i : S40000x128.Idx) : S128.Idx := fun a => match a with
  | ⟨0, _⟩ => ⟨(i 1).val, (i 1).isLt⟩

/-- `hidden` of the arrays the host hands the first kernel — the counts as a column, the two weight matrices stacked, the
    bias as a row — at entry (r, c), in terms of the counts vector, the two matrices and the bias vector themselves:
    `max (((Σ_k S[r,k] / max(cnt[r], 1) · Wl[k,c]) + b[c]) + Σ_k X[r,k] · Wr[k,c], 0)`. The upper half of the stack is
    `Wl`, the lower `Wr`; the bias moves past the second sum because addition of extended reals is commutative and
    associative. -/
theorem hidden_entry (S : FVec Ideal S40000x128 .f32) (cnt : FVec Ideal S40000 .f32) (X : FVec Ideal S40000x128 .f32)
    (Wl Wr : FVec Ideal S128x128 .f32) (b : FVec Ideal S128 .f32) (i : S40000x128.Idx) :
    hidden S (broadcastInDim S40000x1 ![0] bcast_S40000_S40000x1_0 cnt) X
        (concatenate S256x128 0 [⟨S128x128, Wl⟩, ⟨S128x128, Wr⟩] concatenates_S128x128_S128x128_S256x128_d0)
        (shapeCast S1x128 b shapeCasts_S128_S1x128) i
      = max (((∑ k : Fin 128, Ideal.div (S (aRow i k)) (max (cnt (nodeAt i)) (FloatOps.ofBits (F := Ideal) .f32 0x3F800000#32)) * Wl (wAt i k))
                + b (colAt i)) + ∑ k : Fin 128, X (aRow i k) * Wr (wAt i k))
          (FloatOps.ofBits (F := Ideal) .f32 0x00000000#32) := by
  unfold hidden
  refine congrArg₂ max ((add_right_comm _ _ _).trans ?_) rfl
  refine congrArg₂ (· + ·) (congrArg₂ (· + ·) (Finset.sum_congr rfl fun k _ => ?_) ?_) (Finset.sum_congr rfl fun k _ => ?_)
  · refine congrArg₂ (· * ·) (congrArg₂ Ideal.div rfl (congrArg₂ max ?_ rfl)) ?_
    · exact broadcastInDim_apply _ bcast_S40000_S40000x1_0 cnt (aCnt i) (nodeAt i) (fun a => match a with
        | ⟨0, _⟩ => by show (i 0).val = if (40000 : Nat) = 1 then 0 else (i 0).val; rw [if_neg (by decide)])
    · exact concatenate_pair_apply_left (t := S256x128) (s₁ := S128x128) (s₂ := S128x128) 0 Wl Wr _ (aUpper i k) rfl (wAt i k)
        (fun b => match b with | ⟨0, _⟩ => rfl | ⟨1, _⟩ => rfl)
  · exact shapeCast_apply b _ (aBias i) (colAt i)
      (by rewrite [Shape.rowMajor_val_one, Shape.rowMajor_val_two]; show (i 1).val = 0 * 128 + (i 1).val; omega)
  · refine congrArg (X (aRow i k) * ·) ?_
    exact concatenate_pair_apply_right (t := S256x128) (s₁ := S128x128) (s₂ := S128x128) 0 Wl Wr _ (aLower i k) rfl rfl (wAt i k)
      (fun b hb => match b with | ⟨0, _⟩ => absurd rfl hb | ⟨1, _⟩ => rfl)
      (by show k.val + 128 = 128 + k.val; omega)

end Cert.KernelIdeal.Layer1

end
-- ==== Proof.EntryL2.lean ====
import proofs.«113964_j86397562126633_1_alg».proof.Proof.ArrayL2

noncomputable section

open Idealize.ShloMosaic Idealize.ShloMosaic.TcCoe Idealize.SL.Sem

namespace Cert.KernelIdeal.Layer2

open Cert.KernelIdeal Cert.KernelIdeal.Facts₀

/-- Node `i 0` of a per-node vector. -/
abbrev nodeAt (i : S40000x64.Idx) : S40000.Idx := fun a => match a with
  | ⟨0, _⟩ => ⟨(i 0).val, (i 0).isLt⟩
/-- Row `k`, column `i 1` of a [128, 64] weight matrix. -/
abbrev wAt (i : S40000x64.Idx) (k : Fin 128) : S128x64.Idx := fun a => match a with
  | ⟨0, _⟩ => ⟨k.val, k.isLt⟩
  | ⟨1, _⟩ => ⟨(i 1).val, (i 1).isLt⟩
/-- Entry `i 1` of the bias vector. -/
abbrev colAt (i : S40000x64.Idx) : S64.Idx := fun a => match a with
  | ⟨0, _⟩ => ⟨(i 1).val, (i 1).isLt⟩

/-- `result` of the arrays the host hands the second kernel — the counts as a column, the two weight matrices stacked,
    the bias as a row — at entry (r, c), in terms of the counts vector, the two matrices and the bias vector themselves:
    `((Σ_k S[r,k] / max(cnt[r], 1) · Wl[k,c]) + b[c]) + Σ_k H[r,k] · Wr[k,c]`. The upper half of the stack is `Wl`, the
    lower `Wr`; the bias moves past the second sum because addition of extended reals is commutative and associative. -/
theorem result_entry (S : FVec Ideal S40000x128 .f32) (cnt : FVec Ideal S40000 .f32) (X : FVec Ideal S40000x128 .f32)
    (Wl Wr : FVec Ideal S128x64 .f32) (b : FVec Ideal S64 .f32) (i : S40000x64.Idx) :
    result S (broadcastInDim S40000x1 ![0] bcast_S40000_S40000x1_0 cnt) X
        (concatenate S256x64 0 [⟨S128x64, Wl⟩, ⟨S128x64, Wr⟩] concatenates_S128x64_S128x64_S256x64_d0)
        (shapeCast S1x64 b shapeCasts_S64_S1x64) i
      = ((∑ k : Fin 128, Ideal.div (S (aRow i k)) (max (cnt (nodeAt i)) (FloatOps.ofBits (F := Ideal) .f32 0x3F800000#32)) * Wl (wAt i k))
            + b (colAt i)) + ∑ k : Fin 128, X (aRow i k) * Wr (wAt i k) := by
  unfold result
  refine (add_right_comm _ _ _).trans ?_
  refine congrArg₂ (· + ·) (congrArg₂ (· + ·) (Finset.sum_congr rfl fun k _ => ?_) ?_) (Finset.sum_congr rfl fun k _ => ?_)
  · refine congrArg₂ (· * ·) (congrArg₂ Ideal.div rfl (congrArg₂ max ?_ rfl)) ?_
    · exact broadcastInDim_apply _ bcast_S40000_S40000x1_0 cnt (aCnt i) (nodeAt i) (fun a => match a with
        | ⟨0, _⟩ => by show (i 0).val = if (40000 : Nat) = 1 then 0 else (i 0).val; rw [if_neg (by decide)])
    · exact concatenate_pair_apply_left (t := S256x64) (s₁ := S128x64) (s₂ := S128x64) 0 Wl Wr _ (aUpper i k) rfl (wAt i k)
        (fun b => match b with | ⟨0, _⟩ => rfl | ⟨1, _⟩ => rfl)
  · exact shapeCast_apply b _ (aBias i) (colAt i)
      (by rewrite [Shape.rowMajor_val_one, Shape.rowMajor_val_two]; show (i 1).val = 0 * 64 + (i 1).val; omega)
  · refine congrArg (X (aRow i k) * ·) ?_
    exact concatenate_pair_apply_right (t := S256x64) (s₁ := S128x64) (s₂ := S128x64) 0 Wl Wr _ (aLower i k) rfl rfl (wAt i k)
      (fun b hb => match b with | ⟨0, _⟩ => absurd rfl hb | ⟨1, _⟩ => rfl)
      (by show k.val + 128 = 128 + k.val; omega)

end Cert.KernelIdeal.Layer2

end
-- ==== Proof.RefValue.lean ====
import proofs.«113964_j86397562126633_1_alg».proof.Proof.Gen.ReferenceIdeal.Run
import proofs.«113964_j86397562126633_1_alg».proof.Proof.Gen.ReferenceIdeal.Read
import proofs.«113964_j86397562126633_1_alg».proof.Proof.KernelValue
import proofs.«113964_j86397562126633_1_alg».proof.Proof.EntryL1
import proofs.«113964_j86397562126633_1_alg».proof.Proof.EntryL2

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read
open Cert.KernelIdeal.HostSide

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))

/-- The reference's first neighbour sum is the kernel program's: the same host operations on the same arguments. -/
theorem sum1 : val_main_v13 (F := Ideal) x0 x1 = neighbourSum (srcNodes x1) (dstNodes x1) x0 := by
  unfold val_main_v13 val_main_v12 val_main_v11 val_main_v10 val_main_v9 val_main_v8 val_main_v7 val_main_v6 val_main_v5 val_main_v4
    val_main_v3 val_main_v2 val_main_v1 val_main_v0 val_main_c val_main_c_0 val_main_cst neighbourSum srcNodes dstNodes
  rfl

/-- The reference's edge counts are the kernel program's. -/
theorem deg1 : val_main_v17 (F := Ideal) x1 = degree (dstNodes x1) := by
  unfold val_main_v17 val_main_v16 val_main_v15 val_main_v14 val_main_v3 val_main_v2 val_main_cst_1 val_main_cst_2 degree dstNodes
  rfl

/-- The reference's second neighbour sum is the kernel program's, of the reference's own hidden features. -/
theorem sum2 : val_main_v39 (F := Ideal) x0 x1 x2 x3 x4 = neighbourSum (srcNodes x1) (dstNodes x1) (val_main_v29 (F := Ideal) x0 x1 x2 x3 x4) := by
  unfold val_main_v39 val_main_v38 val_main_v37 val_main_v36 val_main_v35 val_main_v34 val_main_v33 val_main_v32 val_main_v31 val_main_v30
    val_main_v3 val_main_v2 val_main_v1 val_main_v0 val_main_c_4 val_main_c_5 val_main_cst_6 neighbourSum srcNodes dstNodes
  rfl

/-- The reference counts the edges a second time, to the same vector. -/
theorem deg2 : val_main_v43 (F := Ideal) x1 = degree (dstNodes x1) := by
  unfold val_main_v43 val_main_v42 val_main_v41 val_main_v40 val_main_v3 val_main_v2 val_main_cst_7 val_main_cst_8 degree dstNodes
  rfl

/-- The reference's hidden features are the kernel program's: entry by entry the same sums, the same bias, the same
    clamp at zero, over the same neighbour sums and edge counts. -/
theorem hidden_ref : val_main_v29 (F := Ideal) x0 x1 x2 x3 x4 = hiddenOf x0 x1 x2 x3 x4 := by
  funext i
  unfold hiddenOf
  refine Eq.trans ?_ (Cert.KernelIdeal.Layer1.hidden_entry (neighbourSum (srcNodes x1) (dstNodes x1) x0) (degree (dstNodes x1)) x0 x2 x4 x3 i).symm
  rw [val_main_v29_apply, val_main_v28_apply, val_main_v26_apply, val_main_v23_apply, val_main_v27_apply, val_main_v25_apply,
    val_main_v24_apply, val_main_call0_v0_apply, val_main_call0_cst_apply]
  simp only [val_main_v22_apply, val_main_v21_apply, val_main_v20_apply, val_main_v19_apply, val_main_v18_apply, val_main_cst_3_apply, sum1, deg1]
  have e1 : ∀ k, lidx_main_v23 i k = Cert.KernelIdeal.Layer1.aRow i k := fun k => funext fun a => Fin.ext (by match a with | ⟨0, _⟩ => rfl | ⟨1, _⟩ => rfl)
  have e2 : ∀ k, idx_main_v20 (idx_main_v21 (lidx_main_v23 i k)) = Cert.KernelIdeal.Layer1.nodeAt i := fun k => funext fun a => Fin.ext (by match a with | ⟨0, _⟩ => rfl)
  have e3 : ∀ k, ridx_main_v23 i k = Cert.KernelIdeal.Layer1.wAt i k := fun k => funext fun a => Fin.ext (by match a with | ⟨0, _⟩ => rfl | ⟨1, _⟩ => rfl)
  have e4 : idx_main_v24 (idx_main_v25 i) = Cert.KernelIdeal.Layer1.colAt i := funext fun a => Fin.ext (by match a with | ⟨0, _⟩ => rfl)
  have e5 : ∀ k, lidx_main_v27 i k = Cert.KernelIdeal.Layer1.aRow i k := fun k => funext fun a => Fin.ext (by match a with | ⟨0, _⟩ => rfl | ⟨1, _⟩ => rfl)
  have e6 : ∀ k, ridx_main_v27 i k = Cert.KernelIdeal.Layer1.wAt i k := fun k => funext fun a => Fin.ext (by match a with | ⟨0, _⟩ => rfl | ⟨1, _⟩ => rfl)
  simp only [e2, e1, e3, e4, e5, e6]
  rfl

/-- The reference's result is `sage` of its arguments: the second layer's entry formula over the reference's own hidden
    features, which are the kernel program's. -/
theorem result_ref : val_main_v54 (F := Ideal) x0 x1 x2 x3 x4 x5 x6 x7 = sage x0 x1 x2 x3 x4 x5 x6 x7 := by
  funext i
  unfold sage
  refine Eq.trans ?_ (Cert.KernelIdeal.Layer2.result_entry (neighbourSum (srcNodes x1) (dstNodes x1) (hiddenOf x0 x1 x2 x3 x4)) (degree (dstNodes x1)) (hiddenOf x0 x1 x2 x3 x4) x5 x7 x6 i).symm
  rw [val_main_v54_apply, val_main_v52_apply, val_main_v49_apply, val_main_v53_apply, val_main_v51_apply, val_main_v50_apply]
  simp only [val_main_v48_apply, val_main_v47_apply, val_main_v46_apply, val_main_v45_apply, val_main_v44_apply, val_main_cst_9_apply, sum2, deg2, hidden_ref]
  have e1 : ∀ k, lidx_main_v49 i k = Cert.KernelIdeal.Layer2.aRow i k := fun k => funext fun a => Fin.ext (by match a with | ⟨0, _⟩ => rfl | ⟨1, _⟩ => rfl)
  have e2 : ∀ k, idx_main_v46 (idx_main_v47 (lidx_main_v49 i k)) = Cert.KernelIdeal.Layer2.nodeAt i := fun k => funext fun a => Fin.ext (by match a with | ⟨0, _⟩ => rfl)
  have e3 : ∀ k, ridx_main_v49 i k = Cert.KernelIdeal.Layer2.wAt i k := fun k => funext fun a => Fin.ext (by match a with | ⟨0, _⟩ => rfl | ⟨1, _⟩ => rfl)
  have e4 : idx_main_v50 (idx_main_v51 i) = Cert.KernelIdeal.Layer2.colAt i := funext fun a => Fin.ext (by match a with | ⟨0, _⟩ => rfl)
  have e5 : ∀ k, lidx_main_v53 i k = Cert.KernelIdeal.Layer2.aRow i k := fun k => funext fun a => Fin.ext (by match a with | ⟨0, _⟩ => rfl | ⟨1, _⟩ => rfl)
  have e6 : ∀ k, ridx_main_v53 i k = Cert.KernelIdeal.Layer2.wAt i k := fun k => funext fun a => Fin.ext (by match a with | ⟨0, _⟩ => rfl | ⟨1, _⟩ => rfl)
  simp only [e2, e1, e3, e4, e5, e6]
  rfl

end Cert.ReferenceIdeal.RefValue

end
-- ==== Proof.lean ====
/- Two layers of neighbour-mean graph convolution over 40000 nodes and 640000 edges, 128 features in, 128 hidden, 64 out:
   `h = max (mean_nbr(x) · W1l + b1 + x · W1r, 0)`, `out = mean_nbr(h) · W2l + b2 + h · W2r`, where `mean_nbr(y)[r] =
   (Σ over edges into r of y[source]) / max (number of edges into r, 1)`.

   The kernel program computes the neighbour sums and the edge counts on the host (gather, scatter-add), and each layer
   in one kernel over eight blocks of 5000 rows: the block of sums divided by `max (count, 1)` is laid beside the block
   of features, the 256-wide row is contracted against the two weight matrices stacked, the bias is added, and (first
   layer only) the result is clamped at zero. The reference computes the same neighbour sums and counts by the same host
   operations, then `(mean · Wl + b) + y · Wr` with two 128-wide contractions.

   On the extended reals the two agree entry by entry:
     * a contraction over 256 terms is the sum of the contractions over its first and its last 128 terms, and those are
       the left and the right piece of the concatenated row against the upper and the lower half of the stacked weights;
     * `(A + B) + b = (A + b) + B`: addition of extended reals is commutative and associative (no finiteness is needed);
     * a change of float format is the identity, and the product into a zero accumulator is the plain sum;
     * the gather and the scatter-add are the same functions of the same operands in both programs, so the second
       layer's neighbour sums agree because the hidden features do.
   Modules: PayloadL1/L2 (what a kernel body stores at an entry of its block), ArrayL1/L2 (each kernel's output array as
   one function of the five arrays it reads: the eight blocks tile the rows), HostChain and KernelValue (those five
   arrays as host terms of the arguments, before each kernel; the program's result array as `sage` of the arguments),
   KernelRun (the program's run with the result array named), EntryL1/L2 (the entry formulas through the host's
   concatenation, reshape and broadcast), RefValue (the reference's stages are `sage`), LibSumHalves (the split sum). -/
import proofs.«113964_j86397562126633_1_alg».proof.Defs
import proofs.«113964_j86397562126633_1_alg».proof.Proof.Gen.Kernel
import proofs.«113964_j86397562126633_1_alg».proof.Proof.Gen.Kernel.Frame
import proofs.«113964_j86397562126633_1_alg».proof.Proof.Gen.KernelIdeal
import proofs.«113964_j86397562126633_1_alg».proof.Proof.Gen.KernelIdeal.Frame
import proofs.«113964_j86397562126633_1_alg».proof.Proof.Gen.ReferenceIdeal
import proofs.«113964_j86397562126633_1_alg».proof.Proof.Gen.Pre_finite_inputs
import proofs.«113964_j86397562126633_1_alg».proof.Proof.Gen.ReferenceIdeal.Run
import proofs.«113964_j86397562126633_1_alg».proof.Proof.KernelRun
import proofs.«113964_j86397562126633_1_alg».proof.Proof.KernelValue
import proofs.«113964_j86397562126633_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the program on the extended reals rewrote no operation. -/
theorem preserves : Cert.preserves_Kernel_KernelIdeal := trivial

/-- From memories that agree on the eight arguments both programs end with the result array at `sage` of the
    arguments: the kernel program by its run and its two kernels' output arrays, the reference by its run and its
    stages. -/
theorem algebraic : Cert.algebraic_KernelIdeal_ReferenceIdeal := by
  intro m ρ m' ρ' _ hagree
  refine ⟨fun c => Cert.KernelIdeal.HostSide.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.result_at m ρ c), (h c).2⟩) (Cert.KernelIdeal.Whole.run_out m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.RefValue.result_ref, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
